-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x64x3x3 : Shape := ⟨5, ![8, 4096, 64, 3, 3]⟩
abbrev S2048x64x3x3 : Shape := ⟨4, ![2048, 64, 3, 3]⟩
abbrev S_ : Shape := ⟨0, ![]⟩

class Facts : Prop where
  bcast_S_S8x4096x64x3x3 : S_.BroadcastsInDim S8x4096x64x3x3 (![] : Fin 0 → Fin S8x4096x64x3x3.rank)
  reducesTo_S8x4096x64x3x3_S_d0_1_2_3_4 : S8x4096x64x3x3.ReducesTo [0, 1, 2, 3, 4] S_
  h_S_ : 0 < S_.numel
  bcast_S_S2048x64x3x3 : S_.BroadcastsInDim S2048x64x3x3 (![] : Fin 0 → Fin S2048x64x3x3.rank)
  reducesTo_S2048x64x3x3_S_d0_1_2_3 : S2048x64x3x3.ReducesTo [0, 1, 2, 3] S_

variable [Facts]

def fn {F : FTy → Type} [FloatOps F] (main_arg0 : FVec F S8x4096x64x3x3 .f32) (main_arg1 : FVec F S2048x64x3x3 .f32) : IVec S_ 1 :=
  let main_v0 : FVec F S8x4096x64x3x3 .f32 := Host.absf main_arg0
  let main_cst : FVec F S_ .f32 := constant S_ .f32 0x7F800000#32
  let main_v1 : FVec F S8x4096x64x3x3 .f32 := broadcastInDim S8x4096x64x3x3 ![] bcast_S_S8x4096x64x3x3 main_cst
  let main_v2 : IVec S8x4096x64x3x3 1 := cmpf .olt main_v0 main_v1
  let main_c : IVec S_ 1 := constantI S_ 1 1#1
  let main_v3 : IVec S_ 1 := (fun x v => Host.reduce IntOp.andi x v reducesTo_S8x4096x64x3x3_S_d0_1_2_3_4 h_S_) main_v2 main_c
  let main_v4 : FVec F S2048x64x3x3 .f32 := Host.absf main_arg1
  let main_cst_0 : FVec F S_ .f32 := constant S_ .f32 0x7F800000#32
  let main_v5 : FVec F S2048x64x3x3 .f32 := broadcastInDim S2048x64x3x3 ![] bcast_S_S2048x64x3x3 main_cst_0
  let main_v6 : IVec S2048x64x3x3 1 := cmpf .olt main_v4 main_v5
  let main_c_1 : IVec S_ 1 := constantI S_ 1 1#1
  let main_v7 : IVec S_ 1 := (fun x v => Host.reduce IntOp.andi x v reducesTo_S2048x64x3x3_S_d0_1_2_3 h_S_) main_v6 main_c_1
  let main_v8 : IVec S_ 1 := andi main_v3 main_v7
  main_v8
-- ==== Kernel.lean ====
abbrev S8x4096x64x3x3 : Shape := ⟨5, ![8, 4096, 64, 3, 3]⟩
abbrev S2048x64x3x3 : Shape := ⟨4, ![2048, 64, 3, 3]⟩
abbrev S32768x576 : Shape := ⟨2, ![32768, 576]⟩
abbrev S2048x576 : Shape := ⟨2, ![2048, 576]⟩
abbrev S576x2048 : Shape := ⟨2, ![576, 2048]⟩
abbrev S_ : Shape := ⟨0, ![]⟩
abbrev S2048 : Shape := ⟨1, ![2048]⟩
abbrev S1x2048 : Shape := ⟨2, ![1, 2048]⟩
abbrev S32768x2048 : Shape := ⟨2, ![32768, 2048]⟩
abbrev S512x576 : Shape := ⟨2, ![512, 576]⟩
abbrev S512x2048 : Shape := ⟨2, ![512, 2048]⟩
abbrev S512 : Shape := ⟨1, ![512]⟩
abbrev S512x1 : Shape := ⟨2, ![512, 1]⟩
abbrev S8x4096x2048 : Shape := ⟨3, ![8, 4096, 2048]⟩

abbrev nBuf : Space → Nat
  | .hbm => 13
  | .vmem => 6
  | .smem => 0
  | _ => 0

abbrev bufTy : (tb : Table) → Fin (tcTables nBuf tb) → BufTy
  | .hbm, ⟨0, _⟩ => ⟨S8x4096x64x3x3, .f32⟩
  | .hbm, ⟨1, _⟩ => ⟨S2048x64x3x3, .f32⟩
  | .hbm, ⟨2, _⟩ => ⟨S32768x576, .f32⟩
  | .hbm, ⟨3, _⟩ => ⟨S2048x576, .f32⟩
  | .hbm, ⟨4, _⟩ => ⟨S576x2048, .f32⟩
  | .hbm, ⟨5, _⟩ => ⟨S576x2048, .bf16⟩
  | .hbm, ⟨6, _⟩ => ⟨S2048x576, .f32⟩
  | .hbm, ⟨7, _⟩ => ⟨S_, .f32⟩
  | .hbm, ⟨8, _⟩ => ⟨S2048, .f32⟩
  | .hbm, ⟨9, _⟩ => ⟨S2048, .f32⟩
  | .hbm, ⟨10, _⟩ => ⟨S1x2048, .f32⟩
  | .hbm, ⟨11, _⟩ => ⟨S32768x2048, .f32⟩
  | .hbm, ⟨12, _⟩ => ⟨S8x4096x2048, .f32⟩
  | .local _ .vmem, ⟨0, _⟩ => ⟨S512x576, .f32⟩
  | .local _ .vmem, ⟨1, _⟩ => ⟨S512x576, .f32⟩
  | .local _ .vmem, ⟨2, _⟩ => ⟨S576x2048, .bf16⟩
  | .local _ .vmem, ⟨3, _⟩ => ⟨S1x2048, .f32⟩
  | .local _ .vmem, ⟨4, _⟩ => ⟨S512x2048, .f32⟩
  | .local _ .vmem, ⟨5, _⟩ => ⟨S512x2048, .f32⟩
  | _, _ => ⟨S8x4096x64x3x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_cst : Ref sig .tc := ⟨.hbm, 7, rfl⟩
abbrev main_call0_v1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x576 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S576x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S8x4096x64x3x3_S32768x576 : S8x4096x64x3x3.ShapeCasts S32768x576
  shapeCasts_S2048x64x3x3_S2048x576 : S2048x64x3x3.ShapeCasts S2048x576
  transposes_S2048x576_S576x2048_1_0 : S2048x576.Transposes [1, 0] S576x2048
  bitsLt_bf16_f32 : FTy.bits .bf16 < FTy.bits .f32
  reducesTo_S2048x576_S2048_d1 : S2048x576.ReducesTo [1] S2048
  h_S_ : 0 < S_.numel
  bcast_S2048_S1x2048_1 : S2048.BroadcastsInDim S1x2048 (![1] : Fin 1 → Fin S1x2048.rank)
  inb_S512x576_S512x576_0_0 : ∀ a, (![0, 0] : Fin 2 → Nat) a + S512x576.size a ≤ S512x576.size a
  h_S512x576 : 0 < S512x576.numel
  shapeCasts_S512x576_S512x576 : S512x576.ShapeCasts S512x576
  inb_S576x2048_S576x2048_0_0 : ∀ a, (![0, 0] : Fin 2 → Nat) a + S576x2048.size a ≤ S576x2048.size a
  h_S576x2048 : 0 < S576x2048.numel
  shapeCasts_S576x2048_S576x2048 : S576x2048.ShapeCasts S576x2048
  reduces_S512x576_S512 : S512x576.Reduces [1] S512
  shapeCasts_S512_S512x1 : S512.ShapeCasts S512x1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S512x1_S512x2048 : S512x1.Broadcasts S512x2048
  broadcasts_S1x2048_S512x2048 : S1x2048.Broadcasts S512x2048
  reduces_S512x2048_S512 : S512x2048.Reduces [1] S512
  inb_S512x2048_S512x2048_0_0 : ∀ a, (![0, 0] : Fin 2 → Nat) a + S512x2048.size a ≤ S512x2048.size a
  h_S512x2048 : 0 < S512x2048.numel
  shapeCasts_S32768x2048_S8x4096x2048 : S32768x2048.ShapeCasts S8x4096x2048
  dot_S512x576_S576x2048_S512x2048_1_0_0_1_n_n_wf : DotDims.WF S512x576 S576x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x576.size a ≤ S32768x576.size a
  hwx0_0 : ∀ i : grid0.Coords, EltTy.bits .f32 = 32 ∨ (Rect.block (s := S32768x576) S512x576.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S576x2048.size a ≤ S576x2048.size a
  hwx0_1 : ∀ i : grid0.Coords, EltTy.bits .bf16 = 32 ∨ (Rect.block (s := S576x2048) S576x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S32768x2048.size a
  hwx0_3 : ∀ i : grid0.Coords, EltTy.bits .f32 = 32 ∨ (Rect.block (s := S32768x2048) S512x2048.size (cc0_transform_3 i) (hinb0_3 i)).WholeWords (EltTy.packing .f32)

variable [Facts₀]

def dot_S512x576_S576x2048_S512x2048_1_0_0_1_n_n : DotDims S512x576 S576x2048 S512x2048 where
  lhsContracting := [1]
  rhsContracting := [0]
  lhsNonContracting := [0]
  rhsNonContracting := [1]
  lhsBatch := []
  rhsBatch := []
  wf := dot_S512x576_S576x2048_S512x2048_1_0_0_1_n_n_wf

abbrev win0_0 : Pipeline.Window sig grid0 :=
  Pipeline.Window.ofSpec (Memref.whole main_v0) S512x576.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S576x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x4096x64x3x3 : Shape := ⟨5, ![8, 4096, 64, 3, 3]⟩
abbrev S2048x64x3x3 : Shape := ⟨4, ![2048, 64, 3, 3]⟩
abbrev S8x4096x576 : Shape := ⟨3, ![8, 4096, 576]⟩
abbrev S2048x576 : Shape := ⟨2, ![2048, 576]⟩
abbrev S8x4096x2048 : Shape := ⟨3, ![8, 4096, 2048]⟩
abbrev S_ : Shape := ⟨0, ![]⟩
abbrev S8x4096 : Shape := ⟨2, ![8, 4096]⟩
abbrev S2048 : Shape := ⟨1, ![2048]⟩
abbrev S8x4096x1 : Shape := ⟨3, ![8, 4096, 1]⟩
abbrev S1x1x2048 : Shape := ⟨3, ![1, 1, 2048]⟩

abbrev nBuf : Space → Nat
  | .hbm => 36
  | .vmem => 0
  | .smem => 0
  | _ => 0

abbrev bufTy : (tb : Table) → Fin (tcTables nBuf tb) → BufTy
  | .hbm, ⟨0, _⟩ => ⟨S8x4096x64x3x3, .f32⟩
  | .hbm, ⟨1, _⟩ => ⟨S2048x64x3x3, .f32⟩
  | .hbm, ⟨2, _⟩ => ⟨S8x4096x576, .f32⟩
  | .hbm, ⟨3, _⟩ => ⟨S2048x576, .f32⟩
  | .hbm, ⟨4, _⟩ => ⟨S8x4096x2048, .f32⟩
  | .hbm, ⟨5, _⟩ => ⟨S8x4096x576, .f32⟩
  | .hbm, ⟨6, _⟩ => ⟨S_, .f32⟩
  | .hbm, ⟨7, _⟩ => ⟨S8x4096, .f32⟩
  | .hbm, ⟨8, _⟩ => ⟨S8x4096, .f32⟩
  | .hbm, ⟨9, _⟩ => ⟨S2048x576, .f32⟩
  | .hbm, ⟨10, _⟩ => ⟨S_, .f32⟩
  | .hbm, ⟨11, _⟩ => ⟨S2048, .f32⟩
  | .hbm, ⟨12, _⟩ => ⟨S2048, .f32⟩
  | .hbm, ⟨13, _⟩ => ⟨S8x4096x1, .f32⟩
  | .hbm, ⟨14, _⟩ => ⟨S1x1x2048, .f32⟩
  | .hbm, ⟨15, _⟩ => ⟨S8x4096x2048, .f32⟩
  | .hbm, ⟨16, _⟩ => ⟨S8x4096x2048, .f32⟩
  | .hbm, ⟨17, _⟩ => ⟨S8x4096x2048, .f32⟩
  | .hbm, ⟨18, _⟩ => ⟨S_, .f32⟩
  | .hbm, ⟨19, _⟩ => ⟨S8x4096x2048, .f32⟩
  | .hbm, ⟨20, _⟩ => ⟨S8x4096x2048, .f32⟩
  | .hbm, ⟨21, _⟩ => ⟨S8x4096x2048, .f32⟩
  | .hbm, ⟨22, _⟩ => ⟨S_, .f32⟩
  | .hbm, ⟨23, _⟩ => ⟨S8x4096, .f32⟩
  | .hbm, ⟨24, _⟩ => ⟨S_, .f32⟩
  | .hbm, ⟨25, _⟩ => ⟨S8x4096, .f32⟩
  | .hbm, ⟨26, _⟩ => ⟨S8x4096, .f32⟩
  | .hbm, ⟨27, _⟩ => ⟨S8x4096x1, .f32⟩
  | .hbm, ⟨28, _⟩ => ⟨S8x4096x2048, .f32⟩
  | .hbm, ⟨29, _⟩ => ⟨S8x4096x2048, .f32⟩
  | .hbm, ⟨30, _⟩ => ⟨S8x4096x2048, .f32⟩
  | .hbm, ⟨31, _⟩ => ⟨S_, .f32⟩
  | .hbm, ⟨32, _⟩ => ⟨S8x4096, .f32⟩
  | .hbm, ⟨33, _⟩ => ⟨S8x4096x1, .f32⟩
  | .hbm, ⟨34, _⟩ => ⟨S8x4096x2048, .f32⟩
  | .hbm, ⟨35, _⟩ => ⟨S8x4096x2048, .f32⟩
  | _, _ => ⟨S8x4096x64x3x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_v3 : Ref sig .tc := ⟨.hbm, 8, rfl⟩
abbrev main_call1_v0 : Ref sig .tc := ⟨.hbm, 9, rfl⟩
abbrev main_call1_cst : Ref sig .tc := ⟨.hbm, 10, rfl⟩
abbrev main_call1_v1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩

abbrev nD : Nat := 1
abbrev τ : Topo := Topo.v7x

variable {F : FTy → Type} [FloatOps F]

class Facts₀ : Prop where
  shapeCasts_S8x4096x64x3x3_S8x4096x576 : S8x4096x64x3x3.ShapeCasts S8x4096x576
  shapeCasts_S2048x64x3x3_S2048x576 : S2048x64x3x3.ShapeCasts S2048x576
  reducesTo_S8x4096x576_S8x4096_d2 : S8x4096x576.ReducesTo [2] S8x4096
  h_S_ : 0 < S_.numel
  reducesTo_S2048x576_S2048_d1 : S2048x576.ReducesTo [1] S2048
  bcast_S8x4096_S8x4096x1_0_1 : S8x4096.BroadcastsInDim S8x4096x1 (![0, 1] : Fin 2 → Fin S8x4096x1.rank)
  bcast_S2048_S1x1x2048_2 : S2048.BroadcastsInDim S1x1x2048 (![2] : Fin 1 → Fin S1x1x2048.rank)
  bcast_S8x4096x1_S8x4096x2048_0_1_2 : S8x4096x1.BroadcastsInDim S8x4096x2048 (![0, 1, 2] : Fin 3 → Fin S8x4096x2048.rank)
  bcast_S1x1x2048_S8x4096x2048_0_1_2 : S1x1x2048.BroadcastsInDim S8x4096x2048 (![0, 1, 2] : Fin 3 → Fin S8x4096x2048.rank)
  bcast_S_S8x4096x2048 : S_.BroadcastsInDim S8x4096x2048 (![] : Fin 0 → Fin S8x4096x2048.rank)
  reducesTo_S8x4096x2048_S8x4096_d2 : S8x4096x2048.ReducesTo [2] S8x4096
  bcast_S_S8x4096 : S_.BroadcastsInDim S8x4096 (![] : Fin 0 → Fin S8x4096.rank)
  dot_S8x4096x576_S2048x576_S8x4096x2048_2_1_01_0_n_n_wf : DotDims.WF S8x4096x576 S2048x576 S8x4096x2048 [2] [1] [0, 1] [0] [] []

variable [Facts₀]

def dot_S8x4096x576_S2048x576_S8x4096x2048_2_1_01_0_n_n : DotDims S8x4096x576 S2048x576 S8x4096x2048 where
  lhsContracting := [2]
  rhsContracting := [1]
  lhsNonContracting := [0, 1]
  rhsNonContracting := [0]
  lhsBatch := []
  rhsBatch := []
  wf := dot_S8x4096x576_S2048x576_S8x4096x2048_2_1_01_0_n_n_wf

class Facts : Prop extends Facts₀ where

variable [Facts]
-- ==== Proof.Spec.lean ====
/-
  The result both programs compute, as one function of the two flattened argument arrays.

  Row (b, n) of the first argument, flattened to 576 entries, is a vector x; row u of the second, flattened the same way,
  is a vector w. Their logit is the cosine similarity with a positive constant added to the denominator,
      <x, w> / (|x| |w| + eps),
  and the result at (b, n, v) is the softmax over u of the 2048 logits of row (b, n), read at v.

  The softmax is written in two forms. `plain` divides exp of a logit by the sum of the exps. `shifted` first subtracts
  the largest logit of the row from every logit. The two agree when every logit is a real number, because then
  exp (c - M) = exp c / exp M with exp M a positive real, which cancels between numerator and denominator.
-/
import Idealize.ShloMosaic.PureOps.Ideal
import Idealize.ShloMosaic.Lib.ValueIdx

noncomputable section

namespace Cert.Spec

open Idealize.ShloMosaic Idealize.ShloMosaic.ValueIdx

/-- The first argument flattened to rows of 576 entries, the second likewise, and the result. -/
abbrev SX : Shape := ⟨3, ![8, 4096, 576]⟩
abbrev SW : Shape := ⟨2, ![2048, 576]⟩
abbrev SO : Shape := ⟨3, ![8, 4096, 2048]⟩

/-- The constant added to the product of the norms: the single-precision number nearest to 1e-8, a positive real. -/
def eps : EReal := Ideal.ofBits .f32 0x322BCC77#32

/-- The inner product of two vectors of 576 entries. -/
def dot (x w : Fin 576 → EReal) : EReal := ∑ k, x k * w k

/-- The Euclidean norm. -/
def norm (x : Fin 576 → EReal) : EReal := Ideal.sqrt (∑ k, x k * x k)

/-- The cosine similarity with `eps` added to the denominator. -/
def logit (x w : Fin 576 → EReal) : EReal := Ideal.div (dot x w) (norm x * norm w + eps)

/-- The softmax of 2048 numbers, read at `v`. -/
def softmax (c : Fin 2048 → EReal) (v : Fin 2048) : EReal := Ideal.div (Ideal.exp (c v)) (∑ u, Ideal.exp (c u))

/-- The largest of 2048 numbers, as a fold of `max` from the bottom element, joined once more with the bottom element. -/
def rowMax (c : Fin 2048 → EReal) : EReal := max ⊥ (Finset.univ.fold max ⊥ c)

/-- Every number less the largest. -/
def shift (c : Fin 2048 → EReal) : Fin 2048 → EReal := fun u => c u - rowMax c

/-- Row (b, n) of the flattened first argument, and row u of the flattened second. -/
def xrow (X : SX.Idx → EReal) (b : Fin 8) (n : Fin 4096) : Fin 576 → EReal := fun k => X (ix3 b n k)
def wrow (W : SW.Idx → EReal) (u : Fin 2048) : Fin 576 → EReal := fun k => W (ix2 u k)

/-- The 2048 logits of row (b, n). -/
def logits (X : SX.Idx → EReal) (W : SW.Idx → EReal) (b : Fin 8) (n : Fin 4096) : Fin 2048 → EReal :=
  fun u => logit (xrow X b n) (wrow W u)

/-- The result with the plain softmax. -/
def plain (X : SX.Idx → EReal) (W : SW.Idx → EReal) : SO.Idx → EReal :=
  fun i => softmax (logits X W (i 0) (i 1)) (i 2)

/-- The result with the softmax taken after subtracting the row's largest logit. -/
def shifted (X : SX.Idx → EReal) (W : SW.Idx → EReal) : SO.Idx → EReal :=
  fun i => softmax (shift (logits X W (i 0) (i 1))) (i 2)

theorem plain_ix3 (X : SX.Idx → EReal) (W : SW.Idx → EReal) (b : Fin 8) (n : Fin 4096) (v : Fin 2048) :
    plain X W (ix3 b n v) = softmax (logits X W b n) v := rfl

theorem shifted_ix3 (X : SX.Idx → EReal) (W : SW.Idx → EReal) (b : Fin 8) (n : Fin 4096) (v : Fin 2048) :
    shifted X W (ix3 b n v) = softmax (shift (logits X W b n)) v := rfl

end Cert.Spec

end
-- ==== Proof.LibFolds.lean ====
/-
  Folds and sums over the fibres of a reduction, and maxima of extended reals.

  A reduction over several axes reads, at a result index `j`, the source indices whose kept coordinates are `j`
  (the fibre of `j`). When the fibre is listed without repetition by a map `e` from a finite type, a sum or a
  commutative, associative fold over the fibre is the same sum or fold over that type. A fold of `max` from `⊥`
  commutes with every monotone map that fixes `⊥`, and over a nonempty family of real numbers it is a real number.
-/
import Idealize.ShloMosaic.PureOps.Ideal

namespace Cert.LibFolds

open Finset

section Fibre

variable {ι τ κ : Type} [Fintype ι] [Fintype κ]

/-- The fibre of `j` under `drop` is the image of a map `e` that lands in it and reaches all of it. -/
theorem filter_eq_image [DecidableEq ι] (drop : ι → τ) (j : τ) [DecidablePred fun i => drop i = j] (e : κ → ι)
    (hmem : ∀ k, drop (e k) = j) (hsurj : ∀ i, drop i = j → ∃ k, e k = i) :
    (univ.filter fun i => drop i = j) = univ.image e := by
  ext i
  simp only [mem_filter, mem_univ, true_and, mem_image]
  exact ⟨hsurj i, fun ⟨k, hk⟩ => hk ▸ hmem k⟩

/-- A sum over the fibre is the sum over the parameters of an injective listing of it. -/
theorem sum_fibre {M : Type} [AddCommMonoid M] (drop : ι → τ) (j : τ) [DecidablePred fun i => drop i = j] (e : κ → ι)
    (hinj : Function.Injective e) (hmem : ∀ k, drop (e k) = j) (hsurj : ∀ i, drop i = j → ∃ k, e k = i) (x : ι → M) :
    ∑ i ∈ univ.filter (fun i => drop i = j), x i = ∑ k, x (e k) := by
  classical
  rw [filter_eq_image drop j e hmem hsurj, sum_image fun a _ b _ h => hinj h]

/-- A commutative, associative fold over the fibre is the fold over the parameters of an injective listing of it. -/
theorem fold_fibre {α : Type} (op : α → α → α) [Std.Commutative op] [Std.Associative op] (b : α) (drop : ι → τ) (j : τ)
    [DecidablePred fun i => drop i = j] (e : κ → ι)
    (hinj : Function.Injective e) (hmem : ∀ k, drop (e k) = j) (hsurj : ∀ i, drop i = j → ∃ k, e k = i) (x : ι → α) :
    (univ.filter fun i => drop i = j).fold op b x = univ.fold op b (fun k => x (e k)) := by
  classical
  rw [filter_eq_image drop j e hmem hsurj, fold_image fun a _ b _ h => hinj h]
  rfl

end Fibre

section Max

variable {ι : Type}

/-- A fold of `max` from `⊥` commutes with a monotone map that fixes `⊥`. -/
theorem fold_max_map (g : EReal → EReal) (hg : Monotone g) (hb : g ⊥ = ⊥) (s : Finset ι) (f : ι → EReal) :
    s.fold max ⊥ (fun k => g (f k)) = g (s.fold max ⊥ f) := by
  classical
  induction s using Finset.induction_on with
  | empty => simp [hb]
  | insert a s ha ih => rw [fold_insert ha, fold_insert ha, ih, hg.map_max]

/-- A fold of `max` from `⊥` over pairs is the fold over the first coordinate of the folds over the second. -/
theorem fold_max_prod {α β : Type} [Fintype α] [Fintype β] (f : α × β → EReal) :
    (univ : Finset (α × β)).fold max ⊥ f = univ.fold max ⊥ fun a => univ.fold max ⊥ fun b => f (a, b) := by
  refine le_antisymm ?_ ?_
  · rw [fold_max_le]
    refine ⟨bot_le, fun p _ => ?_⟩
    rw [le_fold_max]
    refine Or.inr ⟨p.1, mem_univ _, ?_⟩
    rw [le_fold_max]
    exact Or.inr ⟨p.2, mem_univ _, le_rfl⟩
  · rw [fold_max_le]
    refine ⟨bot_le, fun a _ => ?_⟩
    rw [fold_max_le]
    refine ⟨bot_le, fun b _ => ?_⟩
    rw [le_fold_max]
    exact Or.inr ⟨(a, b), mem_univ _, le_rfl⟩

/-- An extended real that is a real number. -/
def IsReal (x : EReal) : Prop := ∃ r : ℝ, x = (r : EReal)

/-- The maximum of a nonempty finite family of real numbers is a real number. -/
theorem isReal_fold_max (s : Finset ι) (hs : s.Nonempty) (f : ι → EReal) (hf : ∀ k ∈ s, IsReal (f k)) :
    IsReal (s.fold max ⊥ f) := by
  classical
  induction hs using Finset.Nonempty.cons_induction with
  | singleton a =>
    obtain ⟨r, hr⟩ := hf a (mem_singleton_self a)
    exact ⟨r, by rw [fold_singleton, hr, max_eq_left bot_le]⟩
  | cons a s ha hs ih =>
    obtain ⟨r, hr⟩ := hf a (mem_cons_self a s)
    obtain ⟨p, hp⟩ := ih fun k hk => hf k (mem_cons.2 (Or.inr hk))
    exact ⟨max r p, by rw [fold_cons, hr, hp]; exact (EReal.coe_strictMono.monotone.map_max).symm⟩

end Max

/-- The sum of real numbers, read in the extended reals, is the sum of their readings. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [sum_insert ha, sum_insert ha, EReal.coe_add, ih]

end Cert.LibFolds
-- ==== Proof.SoftmaxLaw.lean ====
/-
  The law that joins the two forms of the softmax, and why it applies.

  When both flattened arguments hold real numbers, every logit <x, w> / (|x| |w| + eps) is a real number: the inner
  product and the sums of squares are finite sums of reals, a square root of a nonnegative real is a real, and the
  denominator is at least eps, a positive real, so the quotient is an ordinary quotient.

  For 2048 real logits c, the largest one M is a real, exp (c u - M) = exp (c u) / exp M, and
      exp (c v - M) / sum over u of exp (c u - M) = (exp (c v) / exp M) / ((sum over u of exp (c u)) / exp M) = exp (c v) / sum over u of exp (c u),
  because exp M is a positive real. Without real logits the law fails (an infinite M would make every shifted logit
  junk), which is why the inputs are required to be finite.
-/
import proofs.«159865_j987842478192_2_alg».proof.Proof.Spec
import proofs.«159865_j987842478192_2_alg».proof.Proof.LibFolds
import Idealize.ShloMosaic.PureOps.Ideal

noncomputable section

namespace Cert.SoftmaxLaw

open Finset Idealize.ShloMosaic Cert.LibFolds Cert.Spec

/-- The quotient of two reals, the divisor not zero, is the real quotient. -/
theorem div_coe_coe (a b : ℝ) (hb : b ≠ 0) : Ideal.div (a : EReal) (b : EReal) = ((a / b : ℝ) : EReal) := by
  rw [Ideal.div_coe hb, ← EReal.coe_mul, mul_one_div]

/-- The constant in the denominator is a positive real: 11258999 * 2 ^ (-50). -/
theorem eps_real : ∃ e : ℝ, 0 < e ∧ Cert.Spec.eps = (e : EReal) := by
  refine ⟨11258999 * (2 : ℝ) ^ (-50 : ℤ), by positivity, ?_⟩
  unfold Cert.Spec.eps
  simp [Ideal.ofBits, Ideal.ieee, -EReal.coe_mul]

/-- A sum of products of reals is the real sum. -/
theorem sum_mul_coe {n : ℕ} (x w : Fin n → EReal) (xr wr : Fin n → ℝ) (hx : ∀ k, x k = (xr k : EReal)) (hw : ∀ k, w k = (wr k : EReal)) :
    (∑ k, x k * w k) = ((∑ k, xr k * wr k : ℝ) : EReal) := by
  rw [coe_sum]
  exact sum_congr rfl fun k _ => by rw [hx, hw, EReal.coe_mul]

/-- The norm of a real vector is the real norm. -/
theorem norm_coe (y : Fin 576 → EReal) (yr : Fin 576 → ℝ) (hy : ∀ k, y k = (yr k : EReal)) :
    Cert.Spec.norm y = ((Real.sqrt (∑ k, yr k * yr k) : ℝ) : EReal) := by
  unfold Cert.Spec.norm
  rw [sum_mul_coe y y yr yr hy hy, Ideal.sqrt_coe, if_neg (not_lt.2 (sum_nonneg fun k _ => mul_self_nonneg _))]

/-- The logit of two real vectors is a real number. -/
theorem logit_real (x w : Fin 576 → EReal) (hx : ∀ k, IsReal (x k)) (hw : ∀ k, IsReal (w k)) : IsReal (logit x w) := by
  choose xr hxr using hx
  choose wr hwr using hw
  obtain ⟨e, he, hee⟩ := eps_real
  have hpos : Real.sqrt (∑ k, xr k * xr k) * Real.sqrt (∑ k, wr k * wr k) + e ≠ 0 :=
    (add_pos_of_nonneg_of_pos (mul_nonneg (Real.sqrt_nonneg _) (Real.sqrt_nonneg _)) he).ne'
  refine ⟨(∑ k, xr k * wr k) / (Real.sqrt (∑ k, xr k * xr k) * Real.sqrt (∑ k, wr k * wr k) + e), ?_⟩
  unfold logit dot
  rw [sum_mul_coe x w xr wr hxr hwr, norm_coe x xr hxr, norm_coe w wr hwr, hee, ← EReal.coe_mul, ← EReal.coe_add,
    div_coe_coe _ _ hpos]

/-- Subtracting the largest of 2048 real numbers from each of them does not change their softmax. -/
theorem softmax_shift (c : Fin 2048 → EReal) (hc : ∀ u, IsReal (c u)) : softmax (shift c) = softmax c := by
  choose cr hcr using hc
  obtain rfl : c = fun u => (cr u : EReal) := funext hcr
  obtain ⟨M, hM⟩ : IsReal (rowMax fun u => (cr u : EReal)) := by
    unfold rowMax
    rw [max_eq_right bot_le]
    exact isReal_fold_max univ ⟨0, mem_univ _⟩ _ fun k _ => ⟨cr k, rfl⟩
  funext v
  have hl : softmax (shift fun u => (cr u : EReal)) v
      = Ideal.div (Ideal.exp (((cr v - M : ℝ)) : EReal)) (∑ u, Ideal.exp (((cr u - M : ℝ)) : EReal)) := by
    unfold softmax shift
    rw [hM]
    simp only [EReal.coe_sub]
  have hr : softmax (fun u => (cr u : EReal)) v = Ideal.div (Ideal.exp ((cr v : ℝ) : EReal)) (∑ u, Ideal.exp ((cr u : ℝ) : EReal)) := rfl
  rw [hl, hr]
  simp only [Ideal.exp_coe]
  rw [← coe_sum, ← coe_sum, div_coe_coe _ _ (sum_pos (fun u _ => Real.exp_pos _) ⟨0, mem_univ _⟩).ne',
    div_coe_coe _ _ (sum_pos (fun u _ => Real.exp_pos _) ⟨0, mem_univ _⟩).ne']
  refine congrArg _ ?_
  simp only [Real.exp_sub]
  rw [← Finset.sum_div]
  have hE : Real.exp M ≠ 0 := (Real.exp_pos M).ne'
  have hS : (∑ u, Real.exp (cr u)) ≠ 0 := (sum_pos (fun u _ => Real.exp_pos _) ⟨0, mem_univ _⟩).ne'
  field_simp

/-- On real arguments the two forms of the result agree. -/
theorem shifted_eq_plain (X : SX.Idx → EReal) (W : SW.Idx → EReal) (hX : ∀ i, IsReal (X i)) (hW : ∀ i, IsReal (W i)) :
    shifted X W = plain X W := by
  funext i
  unfold shifted plain
  exact congrFun (softmax_shift _ fun u => logit_real _ _ (fun k => hX _) (fun k => hW _)) (i 2)

end Cert.SoftmaxLaw

end
-- ==== Proof.Finite.lean ====
/-
  From the precondition to real entries.

  The precondition computes, for the two argument arrays, the one-bit value
  (every |x| < +inf) and (every |y| < +inf), where |a| is max a (-a) on the extended reals and +inf is the word
  0x7F800000, which denotes ⊤. When that bit is 1, each comparison bit is 1, so max a (-a) < ⊤ at every entry a;
  this excludes a = ⊤ (then max a (-a) = ⊤) and a = ⊥ (then -a = ⊤), so a is a real number.
-/
import proofs.«159865_j987842478192_2_alg».proof.Pre_finite_inputs
import proofs.«159865_j987842478192_2_alg».proof.Proof.Gen.Pre_finite_inputs
import proofs.«159865_j987842478192_2_alg».proof.Proof.LibFolds
import Idealize.ShloMosaic.PureOps.Ideal
import Idealize.ShloMosaic.Lib.ValueIdx
import Idealize.ShloMosaic.Lib.ReduceAll

namespace Cert.Finite

open Idealize.ShloMosaic Cert.Pre_finite_inputs Cert.LibFolds

/-- The rank-0 shape has one index. -/
instance : Subsingleton S_.Idx := ⟨fun a b => funext fun d => d.elim0⟩

/-- An extended real whose absolute value max a (-a) is below ⊤ is a real number. -/
theorem isReal_of_abs_lt_top (a : EReal) (h : max a (-a) < ⊤) : IsReal a := by
  induction a using EReal.rec with
  | bot => simp at h
  | coe r => exact ⟨r, rfl⟩
  | top => simp at h

/-- The word 0x7F800000 denotes ⊤. -/
theorem inf_eq_top : Ideal.ofBits .f32 0x7F800000#32 = ⊤ := by simp [Ideal.ofBits, Ideal.ieee]

/-- The comparison bit of |a| < +inf being 1 says max a (-a) < ⊤. -/
theorem abs_lt_top_of_cmp (a : EReal)
    (e : Ideal.cmp .olt (max a (-a)) (Ideal.ofBits .f32 0x7F800000#32) = 1#1) : max a (-a) < ⊤ := by
  rw [inf_eq_top] at e
  by_contra hn
  simp [Ideal.cmp, hn] at e

/-- When the precondition's bit is 1, every entry of both argument arrays is a real number: the bit is the
    conjunction of two conjunctions over all entries of the comparison |a| < +inf, and a 1 there bounds
    max a (-a) strictly below ⊤, which neither ⊤ nor ⊥ satisfies. -/
theorem real_of_pre [Cert.Pre_finite_inputs.Facts]
    (x : FVec Ideal Cert.Pre_finite_inputs.S8x4096x64x3x3 .f32) (y : FVec Ideal Cert.Pre_finite_inputs.S2048x64x3x3 .f32)
    (h : Cert.Pre_finite_inputs.fn (F := Ideal) x y = fun _ => 1#1) :
    (∀ i, Cert.LibFolds.IsReal (x i)) ∧ (∀ i, Cert.LibFolds.IsReal (y i)) := by
  have h0 := congrFun h ValueIdx.ix0
  dsimp only [Cert.Pre_finite_inputs.fn] at h0
  obtain ⟨hx, hy⟩ := IntOp.andi_eq_one.1 h0
  refine ⟨fun i => ?_, fun i => ?_⟩
  · have e := Host.reduce_andi_all _ _ _ _ _ hx i
    exact isReal_of_abs_lt_top (x i) (abs_lt_top_of_cmp (x i) e)
  · have e := Host.reduce_andi_all _ _ _ _ _ hy i
    exact isReal_of_abs_lt_top (y i) (abs_lt_top_of_cmp (y i) e)

end Cert.Finite
-- ==== Proof.RefIsSpec.lean ====
/-
  The reference program, read index by index, is the softmax of the cosine-similarity logits taken after
  subtracting the largest logit of the row.

  At (b, n, u) the quotient of the contraction by the product of the two norms plus the constant is the logit of
  row (b, n) of the first flattened argument against row u of the second. The maximum over u, folded from the
  bottom element and joined once more with it, is the row's largest logit. The exponential of a logit less that
  maximum, divided by the sum over u of those exponentials, is the result.
-/
import proofs.«159865_j987842478192_2_alg».proof.Proof.Gen.ReferenceIdeal.Read
import proofs.«159865_j987842478192_2_alg».proof.Proof.Spec

noncomputable section

namespace Cert.RefIsSpec

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- The two arguments' arrays of extended reals. -/
abbrev A0 : Type := (⟨S8x4096x64x3x3, .f32⟩ : BufTy).Contents (Elt Ideal)
abbrev A1 : Type := (⟨S2048x64x3x3, .f32⟩ : BufTy).Contents (Elt Ideal)

/-- The word of negative infinity is the bottom element. -/
theorem ofBits_negInf : Ideal.ofBits .f32 0xFF800000#32 = (⊥ : EReal) := by simp [Ideal.ofBits, Ideal.ieee]

/-! ## The index maps at explicit coordinates -/

theorem lidx_at (b : Fin 8) (n : Fin 4096) (u : Fin 2048) (k : Fin 576) :
    lidx_main_v2 (ix3 b n u) k = ix3 b n k :=
  funext fun a => Fin.ext (by match a with | ⟨0, _⟩ => rfl | ⟨1, _⟩ => rfl | ⟨2, _⟩ => rfl)

theorem ridx_at (b : Fin 8) (n : Fin 4096) (u : Fin 2048) (k : Fin 576) :
    ridx_main_v2 (ix3 b n u) k = ix2 u k :=
  funext fun a => Fin.ext (by match a with | ⟨0, _⟩ => rfl | ⟨1, _⟩ => rfl)

theorem xnorm_idx_at (b : Fin 8) (n : Fin 4096) (u : Fin 2048) (k : Fin 576) :
    idx_main_call0_v1 (idx_main_v5 (idx_main_v7 (ix3 b n u))) k = ix3 b n k :=
  funext fun a => Fin.ext (by match a with | ⟨0, _⟩ => rfl | ⟨1, _⟩ => rfl | ⟨2, _⟩ => rfl)

theorem wnorm_idx_at (b : Fin 8) (n : Fin 4096) (u : Fin 2048) (k : Fin 576) :
    idx_main_call1_v1 (idx_main_v6 (idx_main_v8 (ix3 b n u))) k = ix2 u k :=
  funext fun a => Fin.ext (by match a with | ⟨0, _⟩ => rfl | ⟨1, _⟩ => rfl)

/-! ## The logit -/

/-- At (b, n, u) the quotient stage is the logit of row (b, n) against row u. -/
theorem logit_at (x0 : A0) (x1 : A1) (b : Fin 8) (n : Fin 4096) (u : Fin 2048) :
    val_main_v12 (F := Ideal) x0 x1 (ix3 b n u)
      = Cert.Spec.logits (val_main_v0 (F := Ideal) x0) (val_main_v1 (F := Ideal) x1) b n u := by
  rw [val_main_v12_apply, val_main_v2_apply, val_main_v11_apply, val_main_v9_apply, val_main_v10_apply, val_main_cst_apply,
    val_main_v7_apply, val_main_v5_apply, val_main_v3_apply, val_main_call0_v1_apply, val_main_call0_cst_apply,
    val_main_v8_apply, val_main_v6_apply, val_main_v4_apply, val_main_call1_v1_apply, val_main_call1_cst_apply]
  simp only [val_main_call0_v0_apply, val_main_call1_v0_apply, lidx_at, ridx_at, xnorm_idx_at, wnorm_idx_at,
    Ideal.hostDivf_def, Ideal.addf_def, Ideal.mulf_def, Ideal.ofBits_def, Ideal.hostUnary_sqrt_def,
    Ideal.ofBits_zero_f32, zero_add]
  rfl

/-! ## The row's largest logit -/

/-- The shape fact that names the dropped axis: the last of three. -/
theorem reduces_last : S8x4096x2048.Reduces [2] S8x4096 := by decide

/-- Row (b, n) with coordinate k put back on the last axis is (b, n, k). -/
theorem lift_at (b : Fin 8) (n : Fin 4096) (k : Fin (S8x4096x2048.size 2)) :
    reduces_last.lift (ix2 b n) k = ix3 b n (⟨k.val, k.isLt⟩ : Fin 2048) := by
  funext c; apply Fin.ext
  fin_cases c <;> rfl

/-- At (b, n) the fold of the maximum from negative infinity over the last axis is the fold of `max` from the bottom
    element over the 2048 logits of the row. -/
theorem foldMax_at (x0 : A0) (x1 : A1) (b : Fin 8) (n : Fin 4096) :
    val_main_v13 (F := Ideal) x0 x1 (ix2 b n)
      = Finset.univ.fold max ⊥ (Cert.Spec.logits (val_main_v0 (F := Ideal) x0) (val_main_v1 (F := Ideal) x1) b n) := by
  unfold val_main_v13
  refine (Host.reduce_eq_fold_single (α := Ideal .f32) (s := S8x4096x2048) (t := S8x4096) (a := 2) (u := S_)
    (FloatOps.maximumf (F := Ideal) (φ := .f32)) (val_main_v12 (F := Ideal) x0 x1) (val_main_cst_0 (F := Ideal))
    reducesTo_S8x4096x2048_S8x4096_d2 reduces_last h_S_ (ix2 b n)).trans ?_
  have hf : (val_main_v12 (F := Ideal) x0 x1 ∘ reduces_last.lift (ix2 b n))
      = Cert.Spec.logits (val_main_v0 (F := Ideal) x0) (val_main_v1 (F := Ideal) x1) b n :=
    funext fun k => (congrArg (val_main_v12 (F := Ideal) x0 x1) (lift_at b n k)).trans (logit_at x0 x1 b n ⟨k.val, k.isLt⟩)
  rw [hf, val_main_cst_0_apply]
  simp only [Ideal.ofBits_def, ofBits_negInf]
  rfl

/-- At (b, n) the maximum stage is the largest of the 2048 logits of the row. -/
theorem rowMax_at (x0 : A0) (x1 : A1) (b : Fin 8) (n : Fin 4096) :
    val_main_v15 (F := Ideal) x0 x1 (ix2 b n)
      = Cert.Spec.rowMax (Cert.Spec.logits (val_main_v0 (F := Ideal) x0) (val_main_v1 (F := Ideal) x1) b n) := by
  rw [val_main_v15_apply, val_main_v14_apply, val_main_cst_1_apply, foldMax_at]
  simp only [Ideal.maximumf_def, Ideal.ofBits_def, ofBits_negInf]
  rfl

/-! ## The exponentials and their quotient -/

theorem max_idx_at (b : Fin 8) (n : Fin 4096) (u : Fin 2048) :
    idx_main_v16 (idx_main_v17 (ix3 b n u)) = ix2 b n :=
  funext fun a => Fin.ext (by match a with | ⟨0, _⟩ => rfl | ⟨1, _⟩ => rfl)

theorem sum_idx_at (b : Fin 8) (n : Fin 4096) (v : Fin 2048) (k : Fin 2048) :
    idx_main_v20 (idx_main_v21 (idx_main_v22 (ix3 b n v))) k = ix3 b n k :=
  funext fun a => Fin.ext (by match a with | ⟨0, _⟩ => rfl | ⟨1, _⟩ => rfl | ⟨2, _⟩ => rfl)

/-- At (b, n, u) the exponential stage is the exponential of the logit less the row's largest. -/
theorem exp_at (x0 : A0) (x1 : A1) (b : Fin 8) (n : Fin 4096) (u : Fin 2048) :
    val_main_v19 (F := Ideal) x0 x1 (ix3 b n u)
      = Ideal.exp (Cert.Spec.shift (Cert.Spec.logits (val_main_v0 (F := Ideal) x0) (val_main_v1 (F := Ideal) x1) b n) u) := by
  rw [val_main_v19_apply, val_main_v18_apply, val_main_v17_apply, val_main_v16_apply, max_idx_at, rowMax_at, logit_at]
  simp only [Ideal.hostUnary_exp_def, Ideal.subf_def]
  rfl

/-- The reference program's result is the softmax of the shifted logits. -/
theorem ref_eq (x0 : (⟨S8x4096x64x3x3, .f32⟩ : BufTy).Contents (Elt Ideal)) (x1 : (⟨S2048x64x3x3, .f32⟩ : BufTy).Contents (Elt Ideal)) :
    val_main_v23 (F := Ideal) x0 x1 = Cert.Spec.shifted (val_main_v0 (F := Ideal) x0) (val_main_v1 (F := Ideal) x1) := by
  funext i
  obtain ⟨b, n, v, rfl⟩ : ∃ (b : Fin 8) (n : Fin 4096) (v : Fin 2048), i = ix3 b n v := ⟨i 0, i 1, i 2, eq_ix3 i⟩
  rw [Cert.Spec.shifted_ix3, val_main_v23_apply, val_main_v22_apply, val_main_v21_apply, val_main_v20_apply,
    val_main_cst_2_apply, exp_at]
  simp only [sum_idx_at, exp_at, Ideal.hostDivf_def, Ideal.ofBits_def, Ideal.ofBits_zero_f32, zero_add]
  rfl

end Cert.RefIsSpec

end
-- ==== Proof.Entry.lean ====
/-
  What the region finds in its three input arrays.

  Before the region the program flattens the first argument to 32768 rows of 576 entries; flattens the second to 2048
  rows of 576 entries, transposes it and changes its format (the identity on extended reals); and computes, for each of
  the 2048 rows w of the flattened second argument, sqrt (0 + sum over k of w k ^ 2), laid out as one row [1, 2048].
  Read at coordinates: the transposed operand at (k, u) is the flattened second argument at (u, k), and the row of norms
  at (0, u) is the norm of row u.
-/
import proofs.«159865_j987842478192_2_alg».proof.Proof.Gen.KernelIdeal.Frame
import proofs.«159865_j987842478192_2_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

namespace Cert.KernelEntry

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ)

/-- The first argument flattened to [32768, 576]. -/
def flatX (c : Dev nD) : FVec Ideal S32768x576 .f32 :=
  shapeCast S32768x576 (m ((c : Thread nD τ).loc main_arg0)) Gen.shapeCasts_S8x4096x64x3x3_S32768x576

/-- The second argument flattened to [2048, 576]. -/
def flatW (c : Dev nD) : FVec Ideal S2048x576 .f32 :=
  shapeCast S2048x576 (m ((c : Thread nD τ).loc main_arg1)) Gen.shapeCasts_S2048x64x3x3_S2048x576

theorem V_main_v0 (c : Dev nD) : (V m c main_v0 : S32768x576.Idx → EReal) = flatX m c := by
  dsimp only [Gen.V, Gen.V0]
  simp only [Gen.hostOps0, Gen.hostOps0_1, Gen.hostOps0_2, List.flatten_cons, List.flatten_nil, List.append_nil, List.cons_append,
    List.nil_append]
  after_results
  rfl

theorem V_main_v3 (c : Dev nD) : (V m c main_v3 : S576x2048.Idx → EReal)
    = truncf .bf16 (transpose S576x2048 [1, 0] (flatW m c) Gen.transposes_S2048x576_S576x2048_1_0) Gen.bitsLt_bf16_f32 := by
  dsimp only [Gen.V, Gen.V0]
  simp only [Gen.hostOps0, Gen.hostOps0_1, Gen.hostOps0_2, List.flatten_cons, List.flatten_nil, List.append_nil, List.cons_append,
    List.nil_append]
  after_results
  rfl

theorem V_main_v5 (c : Dev nD) : (V m c main_v5 : S1x2048.Idx → EReal)
    = broadcastInDim S1x2048 ![1] Gen.bcast_S2048_S1x2048_1
        (Host.sqrt (F := Ideal) (Host.reduceAdd (F := Ideal) (mulf (flatW m c) (flatW m c)) (constant (F := Ideal) S_ .f32 0x00000000#32)
          Gen.reducesTo_S2048x576_S2048_d1 Gen.h_S_)) := by
  dsimp only [Gen.V, Gen.V0]
  simp only [Gen.hostOps0, Gen.hostOps0_1, Gen.hostOps0_2, List.flatten_cons, List.flatten_nil, List.append_nil, List.cons_append,
    List.nil_append]
  after_results
  rfl

/-- The transposed operand at (k, u) is the flattened second argument at (u, k). -/
theorem V_main_v3_apply (c : Dev nD) (k : Fin 576) (u : Fin 2048) :
    (V m c main_v3 : S576x2048.Idx → EReal) (ix2 k u) = flatW m c (ix2 u k) := by
  rw [V_main_v3]
  show transpose S576x2048 [1, 0] (flatW m c) Gen.transposes_S2048x576_S576x2048_1_0 (ix2 k u) = _
  exact transpose_ix2_apply (flatW m c) _ k u

/-- The row of norms at (0, u) is the norm of row u of the flattened second argument. -/
theorem V_main_v5_apply (c : Dev nD) (u : Fin 2048) :
    (V m c main_v5 : S1x2048.Idx → EReal) (ix2 (0 : Fin 1) u) = Cert.Spec.norm (fun k => flatW m c (ix2 u k)) := by
  rw [V_main_v5]
  rw [broadcastInDim_apply (![1] : Fin 1 → Fin 2) Gen.bcast_S2048_S1x2048_1 _ (ix2 (0 : Fin 1) u) (ix1 u)
    (fun a => by match a with | ⟨0, _⟩ => rfl)]
  show Ideal.sqrt (Ideal.hostReduceAdd Gen.reducesTo_S2048x576_S2048_d1 (mulf (flatW m c) (flatW m c)) (Ideal.ofBits .f32 0x00000000#32) (ix1 u)) = _
  rw [Ideal.hostReduceAdd_single Gen.reducesTo_S2048x576_S2048_d1 (by decide), Ideal.ofBits_zero_f32, zero_add]
  unfold Cert.Spec.norm
  refine congrArg Ideal.sqrt (Finset.sum_congr rfl fun k _ => ?_)
  show flatW m c _ * flatW m c _ = _
  have e : (Shape.Reduces.lift (s := S2048x576) (t := S2048) (a := (1 : Fin 2)) (by decide) (ix1 u) k) = ix2 u k :=
    funext fun a => Fin.ext (by match a with | ⟨0, _⟩ => rfl | ⟨1, _⟩ => rfl)
  rw [e]
  rfl

end Cert.KernelEntry

end
-- ==== Proof.LibKeepdims.lean ====
/-
  Two layout readings a row reduction with `keepdims` needs: a vector of `a` entries viewed as a column `[a, 1]`, and that
  column repeated along `b` columns. Each reads, at an index given by its coordinates, one entry of the operand.
-/
import Idealize.ShloMosaic.Lib.Pipeline.Value
import Idealize.ShloMosaic.Lib.ValueIdx

namespace Cert.Keepdims

open Idealize.ShloMosaic Idealize.ShloMosaic.ValueIdx

variable {α : Type}

/-- An `[a]` array cast to the column `[a, 1]` reads, at `(i, u)`, the operand at `i`, whatever the unit coordinate `u`:
    the row-major position of `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.Payload.lean ====
/-
  The kernel body's one stored value, read at a coordinate of its block.

  The body loads a block x of 512 rows of 576 entries, the whole transposed second operand y (576 by 2048) and a row
  nu of 2048 numbers, and stores, at row p and column q,
      exp (c p q) / sum over u of exp (c p u),   c p u = (sum over k of x p k * y k u) / (sqrt (sum over k of x p k ^ 2) * nu u + eps).
  The stages below are the body's arithmetic cut at its reductions and re-layings: the row sums of squares, their square
  roots repeated along the columns, the matrix product, the row nu repeated along the rows, the quotient, its
  exponential, and the row sums of the exponentials. Each is read at explicit coordinates: a lane sum over the second
  axis at row p is the sum over k of the entry (p, k); a column [512, 1] repeated along 2048 columns reads its row; a row
  [1, 2048] repeated along 512 rows reads its column; the product into a zero accumulator is the sum of products.
-/
import proofs.«159865_j987842478192_2_alg».proof.Proof.Gen.KernelIdeal.Skeleton
import proofs.«159865_j987842478192_2_alg».proof.Proof.Spec
import proofs.«159865_j987842478192_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelPayload

open Idealize.ShloMosaic Idealize.ShloMosaic.ValueIdx
open Cert.KernelIdeal Cert.KernelIdeal.Gen

/-- The product's dimension record: rows of the block against columns of the transposed operand, one contracted axis. -/
abbrev D := dot_S512x576_S576x2048_S512x2048_1_0_0_1_n_n

/-- The coordinate a lane sum over the second axis of a two-axis array inserts: row `p`, entry `k`. -/
theorem lift576 (h : S512x576.Reduces [1] S512) (p : Fin 512) (k : Fin 576) : h.lift (ix1 p) k = ix2 p k :=
  funext fun a => Fin.ext (by match a with | ⟨0, _⟩ => rfl | ⟨1, _⟩ => rfl)

theorem lift2048 (h : S512x2048.Reduces [1] S512) (p : Fin 512) (u : Fin 2048) : h.lift (ix1 p) u = ix2 p u :=
  funext fun a => Fin.ext (by match a with | ⟨0, _⟩ => rfl | ⟨1, _⟩ => rfl)

/-- A lane sum of a [512, 576] array at row `p`: the sum of the row's entries. -/
theorem laneSum576 (src : FVec Ideal S512x576 .f32) (h : S512x576.Reduces [1] S512) (hφ : FKind.Formats .f32)
    (hacc : (0x00000000#32 : BitVec 32) = FKind.add.neutral .f32 hφ) (p : Fin 512) :
    multiReduction .add [1] S512 src 0x00000000#32 h hφ hacc (ix1 p) = ∑ k : Fin 576, src (ix2 p k) :=
  (Ideal.multiReduction_add_single src 0x00000000#32 h hφ hacc (ix1 p)).trans
    (Finset.sum_congr rfl fun k _ => congrArg src (lift576 h p k))

/-- A lane sum of a [512, 2048] array at row `p`. -/
theorem laneSum2048 (src : FVec Ideal S512x2048 .f32) (h : S512x2048.Reduces [1] S512) (hφ : FKind.Formats .f32)
    (hacc : (0x00000000#32 : BitVec 32) = FKind.add.neutral .f32 hφ) (p : Fin 512) :
    multiReduction .add [1] S512 src 0x00000000#32 h hφ hacc (ix1 p) = ∑ u : Fin 2048, src (ix2 p u) :=
  (Ideal.multiReduction_add_single src 0x00000000#32 h hφ hacc (ix1 p)).trans
    (Finset.sum_congr rfl fun u _ => congrArg src (lift2048 h p u))

/-! ## The stages -/

/-- The row sums of squares of the block. -/
def rowSq (x : FVec Ideal S512x576 .f32) : FVec Ideal S512 .f32 :=
  multiReduction .add [1] S512 (mulf (shapeCast S512x576 x shapeCasts_S512x576_S512x576) (shapeCast S512x576 x shapeCasts_S512x576_S512x576))
    0x00000000#32 reduces_S512x576_S512 (.inl rfl) rfl

theorem rowSq_apply (x : FVec Ideal S512x576 .f32) (p : Fin 512) : rowSq x (ix1 p) = ∑ k : Fin 576, x (ix2 p k) * x (ix2 p k) := by
  unfold rowSq
  rw [shapeCast_self]
  exact laneSum576 (mulf x x) _ _ _ p

/-- The rows' norms, repeated along the 2048 columns. -/
def rowNorm (x : FVec Ideal S512x576 .f32) : FVec Ideal S512x2048 .f32 :=
  broadcastTo S512x2048 (sqrt (shapeCast S512x1 (rowSq x) shapeCasts_S512_S512x1)) broadcasts_S512x1_S512x2048

theorem rowNorm_apply (x : FVec Ideal S512x576 .f32) (p : Fin 512) (u : Fin 2048) :
    rowNorm x (ix2 p u) = Ideal.sqrt (∑ k : Fin 576, x (ix2 p k) * x (ix2 p k)) := by
  unfold rowNorm
  rw [Cert.Keepdims.broadcastTo_a1_ab_apply]
  show Ideal.sqrt (shapeCast S512x1 (rowSq x) shapeCasts_S512_S512x1 (ix2 p (0 : Fin 1))) = _
  rw [Cert.Keepdims.shapeCast_a_a1_apply, rowSq_apply]

/-- The product of the block with the transposed second operand, into a zero accumulator. -/
def prod (x : FVec Ideal S512x576 .f32) (y : FVec Ideal S576x2048 .bf16) : FVec Ideal S512x2048 .f32 :=
  matmul D none
    (truncf .bf16 (shapeCast S512x576 x shapeCasts_S512x576_S512x576) bitsLt_bf16_f32)
    (shapeCast S576x2048 y shapeCasts_S576x2048_S576x2048) (constant S512x2048 .f32 0x00000000#32)

/-- The operand coordinates the product reads at output (row, column) and contraction index `q`. -/
theorem lhs0 (j : S512x2048.Idx) (q : D.contr.Idx) : (D.lhsIdx j q 0).val = (j 0).val := by
  unfold DotDims.lhsIdx
  rw [dif_neg (show ¬(0 : Fin S512x576.rank) ∈ D.lhsBatch by decide), dif_pos (show (0 : Fin S512x576.rank) ∈ D.lhsNonContracting by decide)]
  rfl
theorem lhs1 (j : S512x2048.Idx) (q : D.contr.Idx) : (D.lhsIdx j q 1).val = (q ⟨0, by decide⟩).val :=
  D.lhsIdx_val_of_single rfl j q
theorem rhs0 (j : S512x2048.Idx) (q : D.contr.Idx) : (D.rhsIdx j q 0).val = (q ⟨0, by decide⟩).val :=
  D.rhsIdx_val_of_single rfl j q
theorem rhs1 (j : S512x2048.Idx) (q : D.contr.Idx) : (D.rhsIdx j q 1).val = (j 1).val := by
  unfold DotDims.rhsIdx
  rw [dif_neg (show ¬(1 : Fin S576x2048.rank) ∈ D.rhsBatch by decide), dif_pos (show (1 : Fin S576x2048.rank) ∈ D.rhsNonContracting by decide)]
  rfl

theorem prod_apply (x : FVec Ideal S512x576 .f32) (y : FVec Ideal S576x2048 .bf16) (p : Fin 512) (u : Fin 2048) :
    prod x y (ix2 p u) = ∑ k : Fin 576, x (ix2 p k) * y (ix2 k u) := by
  unfold prod
  rw [shapeCast_self, shapeCast_self]
  simp only [matmul]
  rw [Ideal.matmul_constant_zero_apply, ← Equiv.sum_comp (ValueIdx.contrEquiv1 D 576 rfl rfl).symm]
  refine Finset.sum_congr rfl fun k _ => ?_
  have hk := ValueIdx.contrEquiv1_symm_val D 576 rfl rfl k
  have el : D.lhsIdx (ix2 p u) ((ValueIdx.contrEquiv1 D 576 rfl rfl).symm k) = ix2 p k :=
    funext fun a => Fin.ext (by
      match a with
      | ⟨0, _⟩ => exact lhs0 _ _
      | ⟨1, _⟩ => exact (lhs1 _ _).trans hk)
  have er : D.rhsIdx (ix2 p u) ((ValueIdx.contrEquiv1 D 576 rfl rfl).symm k) = ix2 k u :=
    funext fun a => Fin.ext (by
      match a with
      | ⟨0, _⟩ => exact (rhs0 _ _).trans hk
      | ⟨1, _⟩ => exact rhs1 _ _)
  rw [el, er]
  rfl

/-- The row of 2048 numbers, repeated along the 512 rows. -/
def colNorm (nu : FVec Ideal S1x2048 .f32) : FVec Ideal S512x2048 .f32 :=
  broadcastTo S512x2048 (shapeCast S1x2048 nu shapeCasts_S1x2048_S1x2048) broadcasts_S1x2048_S512x2048

theorem colNorm_apply (nu : FVec Ideal S1x2048 .f32) (p : Fin 512) (u : Fin 2048) : colNorm nu (ix2 p u) = nu (ix2 (0 : Fin 1) u) := by
  unfold colNorm
  rw [shapeCast_self]
  exact broadcastTo_1b_ab_apply nu _ p u

/-- The quotient: the product over the product of the norms plus the constant. -/
def cosv (x : FVec Ideal S512x576 .f32) (y : FVec Ideal S576x2048 .bf16) (nu : FVec Ideal S1x2048 .f32) : FVec Ideal S512x2048 .f32 :=
  divf (prod x y) (addf (mulf (rowNorm x) (colNorm nu)) (broadcast S512x2048 (Scalar.ofBits .f32 0x322BCC77#32)))

theorem cosv_apply (x : FVec Ideal S512x576 .f32) (y : FVec Ideal S576x2048 .bf16) (nu : FVec Ideal S1x2048 .f32) (p : Fin 512) (u : Fin 2048) :
    cosv x y nu (ix2 p u)
      = Ideal.div (∑ k : Fin 576, x (ix2 p k) * y (ix2 k u))
          (Ideal.sqrt (∑ k : Fin 576, x (ix2 p k) * x (ix2 p k)) * nu (ix2 (0 : Fin 1) u) + Cert.Spec.eps) := by
  show Ideal.div (prod x y (ix2 p u)) (rowNorm x (ix2 p u) * colNorm nu (ix2 p u) + Cert.Spec.eps) = _
  rw [prod_apply, rowNorm_apply, colNorm_apply]

/-- The row sums of the exponentials. -/
def expSum (x : FVec Ideal S512x576 .f32) (y : FVec Ideal S576x2048 .bf16) (nu : FVec Ideal S1x2048 .f32) : FVec Ideal S512 .f32 :=
  multiReduction .add [1] S512 (exp (cosv x y nu)) 0x00000000#32 reduces_S512x2048_S512 (.inl rfl) rfl

theorem expSum_apply (x : FVec Ideal S512x576 .f32) (y : FVec Ideal S576x2048 .bf16) (nu : FVec Ideal S1x2048 .f32) (p : Fin 512) :
    expSum x y nu (ix1 p) = ∑ u : Fin 2048, Ideal.exp (cosv x y nu (ix2 p u)) :=
  laneSum2048 (exp (cosv x y nu)) _ _ _ p

/-- The stored value is the exponential over the repeated row sums. -/
theorem pay_eq (x : FVec Ideal S512x576 .f32) (y : FVec Ideal S576x2048 .bf16) (nu : FVec Ideal S1x2048 .f32) :
    k0_pay1 (F := Ideal) x y nu = divf (exp (cosv x y nu))
      (broadcastTo S512x2048 (shapeCast S512x1 (expSum x y nu) shapeCasts_S512_S512x1) broadcasts_S512x1_S512x2048) := rfl

/-- The 512 by 2048 logits of a block against the whole second operand. -/
def blockLogit (x : FVec Ideal S512x576 .f32) (y : FVec Ideal S576x2048 .bf16) (nu : FVec Ideal S1x2048 .f32) (p : Fin 512) :
    Fin 2048 → EReal :=
  fun u => Ideal.div (∑ k : Fin 576, x (ix2 p k) * y (ix2 k u))
    (Ideal.sqrt (∑ k : Fin 576, x (ix2 p k) * x (ix2 p k)) * nu (ix2 (0 : Fin 1) u) + Cert.Spec.eps)

/-- The stored value at row `p`, column `q`: the plain softmax of the row's logits. -/
theorem pay_apply (x : FVec Ideal S512x576 .f32) (y : FVec Ideal S576x2048 .bf16) (nu : FVec Ideal S1x2048 .f32) (p : Fin 512) (q : Fin 2048) :
    k0_pay1 (F := Ideal) x y nu (ix2 p q) = Cert.Spec.softmax (blockLogit x y nu p) q := by
  rw [pay_eq]
  show Ideal.div (Ideal.exp (cosv x y nu (ix2 p q)))
      (broadcastTo S512x2048 (shapeCast S512x1 (expSum x y nu) shapeCasts_S512_S512x1) broadcasts_S512x1_S512x2048 (ix2 p q)) = _
  rw [Cert.Keepdims.broadcastTo_a1_ab_apply, Cert.Keepdims.shapeCast_a_a1_apply, expSum_apply]
  simp only [cosv_apply]
  rfl

end Cert.KernelPayload

end
-- ==== Proof.Blocks.lean ====
/-
  From the blocks the grid points write back to the whole result array.

  The grid has 64 points. Point t stages rows 512 t … 512 t + 511 of the flattened first argument (all 576 columns), the
  whole transposed second operand and the whole row of norms, and writes back rows 512 t … 512 t + 511 of the
  [32768, 2048] result (all 2048 columns). At row p and column q of its block the body's value is the plain softmax of
  the logits of row 512 t + p of the flattened first argument against every row of the flattened second argument, read
  at q: the same function of the array coordinates (512 t + p, q) at every point. The 64 blocks tile the array (row r lies
  in the block of point r / 512), so after the run the array holds that function everywhere.
-/
import proofs.«159865_j987842478192_2_alg».proof.Proof.Gen.KernelIdeal.Frame
import proofs.«159865_j987842478192_2_alg».proof.Proof.Spec
import proofs.«159865_j987842478192_2_alg».proof.Proof.Payload
import proofs.«159865_j987842478192_2_alg».proof.Proof.Entry
import Idealize.ShloMosaic.Lib.Pipeline.Value
import Idealize.ShloMosaic.Lib.ValueIdx

set_option maxRecDepth 16384

noncomputable section

namespace Cert.KernelBlocks

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelEntry Cert.KernelPayload

variable (m : (ℓ : Loc nD τ sig) → Buf (Elt Ideal) ℓ)

/-- The result array as one function of its coordinates (row, column): the plain softmax of the row's logits. -/
def rowsResult (c : Dev nD) : S32768x2048.Idx → EReal :=
  fun i => Cert.Spec.softmax (fun u => Cert.Spec.logit (fun k => flatX m c (ix2 (i 0) k)) (Cert.Spec.wrow (flatW m c) u)) (i 1)

theorem hz : (![0, 0] : Fin 2 → Nat) = fun _ => 0 := funext fun a => by fin_cases a <;> rfl

/-- The printed index maps over the grid: the block of rows moves with the point, every other block index is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of point `t`'s block is row `512 t + p` of the array. -/
def rowOf (t : Fin cfg0.N) (p : Fin 512) : Fin 32768 := ⟨512 * t.val + p.val, by
  have h : t.val < grid0.N := t.isLt
  have hN : grid0.N = 64 := N_0
  have hp := p.isLt
  omega⟩

/-! ## The input blocks, read at coordinates -/

theorem iblk0_apply (c : Dev nD) (t : Fin cfg0.N) (p : Fin 512) (k : Fin 576) :
    iblk m c 0 t (ix2 p k) = flatX m c (ix2 (rowOf t p) k) := by
  show V m c main_v0 (((cfg0.win 0).blk t).view.emb (ix2 p k)) = _
  rw [V_main_v0]
  refine congrArg (flatX m c) (funext fun a => Fin.ext ?_)
  obtain ⟨e0, e1, -⟩ := idx_facts t
  match a with
  | ⟨0, _⟩ => show win0_0.index t (0 : Fin 2) * 512 + 1 * p.val = 512 * t.val + p.val; omega
  | ⟨1, _⟩ => show win0_0.index t (1 : Fin 2) * 576 + 1 * k.val = k.val; omega

theorem iblk1_apply (c : Dev nD) (t : Fin cfg0.N) (k : Fin 576) (u : Fin 2048) :
    iblk m c 1 t (ix2 k u) = flatW m c (ix2 u k) := by
  show V m c main_v3 (((cfg0.win 1).blk t).view.emb (ix2 k u)) = _
  have e : ((cfg0.win 1).blk t).view.emb (ix2 k u) = ix2 k u := by
    obtain ⟨-, -, e2, e3, -⟩ := idx_facts t
    refine funext fun a => Fin.ext ?_
    match a with
    | ⟨0, _⟩ => show win0_1.index t (0 : Fin 2) * 576 + 1 * k.val = k.val; omega
    | ⟨1, _⟩ => show win0_1.index t (1 : Fin 2) * 2048 + 1 * u.val = u.val; omega
  rw [e]
  exact V_main_v3_apply m c k u

theorem iblk2_apply (c : Dev nD) (t : Fin cfg0.N) (u : Fin 2048) :
    iblk m c 2 t (ix2 (0 : Fin 1) u) = Cert.Spec.norm (fun k => flatW m c (ix2 u k)) := by
  show V m c main_v5 (((cfg0.win 2).blk t).view.emb (ix2 (0 : Fin 1) u)) = _
  have e : ((cfg0.win 2).blk t).view.emb (ix2 (0 : Fin 1) u) = ix2 (0 : Fin 1) u := by
    obtain ⟨-, -, -, -, e4, e5, -⟩ := idx_facts t
    refine funext fun a => Fin.ext ?_
    match a with
    | ⟨0, _⟩ => show win0_2.index t (0 : Fin 2) * 1 + 1 * 0 = 0; omega
    | ⟨1, _⟩ => show win0_2.index t (1 : Fin 2) * 2048 + 1 * u.val = u.val; omega
  rw [e]
  exact V_main_v5_apply m c u

/-- Coordinate (p, q) of point `t`'s output block is coordinate (512 t + p, q) of the array. -/
theorem emb3 (t : Fin cfg0.N) (p : Fin 512) (q : Fin 2048) :
    ((cfg0.win 3).blk t).view.emb (ix2 p q) = ix2 (rowOf t p) q := by
  obtain ⟨-, -, -, -, -, -, e6, e7⟩ := idx_facts t
  refine funext fun a => Fin.ext ?_
  match a with
  | ⟨0, _⟩ => show win0_3.index t (0 : Fin 2) * 512 + 1 * p.val = 512 * t.val + p.val; omega
  | ⟨1, _⟩ => show win0_3.index t (1 : Fin 2) * 2048 + 1 * q.val = q.val; omega

/-! ## What a point writes back -/

/-- WHAT POINT `t` WRITES BACK is block `t` of the one function of the array coordinates. -/
theorem flushed_eq (c : Dev nD) (t : Fin cfg0.N) :
    (dats m 0 c).flushed 3 t = ((cfg0.win 3).blk t).view.read (Elt Ideal) (rowsResult m c) := by
  show (cfg0.win 3).cut (grid0.coords t) ((dats m 0 c).after 3 t) = _
  rw [after0_3]
  unfold out0_3
  rw [View.canon_unit_zero hz]
  simp only [View.ld_unit_zero (S := S512x576) hz, View.ld_unit_zero (S := S576x2048) hz, View.ld_unit_zero (S := S1x2048) hz]
  funext j
  obtain ⟨p, q, rfl⟩ : ∃ (p : Fin 512) (q : Fin 2048), j = ix2 p q := ⟨j 0, j 1, eq_ix2 j⟩
  show k0_pay1 (F := Ideal) (iblk m c 0 t) (iblk m c 1 t) (iblk m c 2 t) (ix2 p q)
    = rowsResult m c (((cfg0.win 3).blk t).view.emb (ix2 p q))
  refine (pay_apply (iblk m c 0 t) (iblk m c 1 t) (iblk m c 2 t) p q).trans ?_
  rw [emb3]
  show Cert.Spec.softmax (blockLogit (iblk m c 0 t) (iblk m c 1 t) (iblk m c 2 t) p) q
    = Cert.Spec.softmax (fun u => Cert.Spec.logit (fun k => flatX m c (ix2 (rowOf t p) k)) (Cert.Spec.wrow (flatW m c) u)) q
  refine congrArg (fun f => Cert.Spec.softmax f q) (funext fun u => ?_)
  unfold blockLogit Cert.Spec.logit Cert.Spec.dot Cert.Spec.wrow
  simp only [iblk0_apply, iblk1_apply, iblk2_apply]
  rfl

/-! ## The blocks tile the array -/

/-- An index of the array is in point `t`'s block iff each coordinate is in the block's range on its axis. -/
theorem mem_blk (t : Fin cfg0.N) (i : S32768x2048.Idx) :
    i ∈ ((cfg0.win 3).blk t).view.set ↔ ∀ a : Fin 2, win0_3.index t a * S512x2048.size a ≤ (i a).val
      ∧ (i a).val < win0_3.index t a * S512x2048.size a + S512x2048.size a := by
  show i ∈ ((View.whole main_v6).slice (win0_3.rect t)).set ↔ _
  rw [View.set_slice_whole, Rect.mem_set_unit]
  exact Iff.rfl

/-- Row `r` of the array lies in the block of point `r / 512`. -/
theorem cover (i : S32768x2048.Idx) : ∃ t : Fin cfg0.N, (cfg0.win 3).flush t = true ∧ i ∈ ((cfg0.win 3).blk t).view.set := by
  have hi0 : (i 0).val < 32768 := (i 0).isLt
  have hi1 : (i 1).val < 2048 := (i 1).isLt
  have hN : grid0.N = 64 := N_0
  have hlt : (i 0).val / 512 < grid0.N := by rw [hN]; omega
  refine ⟨⟨(i 0).val / 512, hlt⟩, flush0_3 _, ?_⟩
  rw [mem_blk]
  obtain ⟨-, -, -, -, -, -, e6, e7⟩ := idx_facts ⟨(i 0).val / 512, hlt⟩
  have e6' : win0_3.index ⟨(i 0).val / 512, hlt⟩ (0 : Fin 2) = (i 0).val / 512 := e6
  intro a
  match a with
  | ⟨0, _⟩ =>
    show win0_3.index ⟨(i 0).val / 512, hlt⟩ (0 : Fin 2) * 512 ≤ (i 0).val
      ∧ (i 0).val < win0_3.index ⟨(i 0).val / 512, hlt⟩ (0 : Fin 2) * 512 + 512
    omega
  | ⟨1, _⟩ =>
    show win0_3.index ⟨(i 0).val / 512, hlt⟩ (1 : Fin 2) * 2048 ≤ (i 1).val
      ∧ (i 1).val < win0_3.index ⟨(i 0).val / 512, hlt⟩ (1 : Fin 2) * 2048 + 2048
    omega

/-- THE ARRAY after the run. -/
theorem final (c : Dev nD) : (dats m 0 c).arrAt 3 cfg0.N = rowsResult m c :=
  (dats m 0 c).arrAt_eq_of_cover 3 (rowsResult m c) (fun t _ => flushed_eq m c t) (cover)

end Cert.KernelBlocks

end
-- ==== Proof.LibFlatten.lean ====
/-
  A reshape that merges the two leading axes of a three-axis array into one, or splits the leading axis of a two-axis
  array into two, read at an index. Row-major order puts entry (p, q, k) of an [a, b, c] array at position
  (p * b + q) * c + k, and entry (R, k) of an [n, c] array at R * c + k: the two agree exactly when R = b * p + q.
-/
import Idealize.ShloMosaic.Lib.Pipeline.Value
import Idealize.ShloMosaic.Lib.ValueIdx

namespace Cert.LibFlatten

open Idealize.ShloMosaic Idealize.ShloMosaic.ValueIdx

/-- Merging the two leading axes: row b * p + q of the result is row (p, q) of the operand. -/
theorem merge_apply {α : Type} {a b c n : ℕ} (x : (⟨3, ![a, b, c]⟩ : Shape).Idx → α)
    (h : (⟨3, ![a, b, c]⟩ : Shape).ShapeCasts ⟨2, ![n, c]⟩) (p : Fin a) (q : Fin b) (k : Fin c) (R : Fin n)
    (hR : R.val = b * p.val + q.val) :
    shapeCast ⟨2, ![n, c]⟩ x h (ix2 R k) = x (ix3 p q k) :=
  shapeCast_apply x h (ix2 R k) (ix3 p q k) (by
    rw [Shape.rowMajor_val_three, Shape.rowMajor_val_two]
    show (p.val * b + q.val) * c + k.val = R.val * c + k.val
    rw [hR, Nat.mul_comm b p.val])

/-- Splitting the leading axis: entry (p, q) of the result is row b * p + q of the operand. -/
theorem split_apply {α : Type} {a b c n : ℕ} (y : (⟨2, ![n, c]⟩ : Shape).Idx → α)
    (h : (⟨2, ![n, c]⟩ : Shape).ShapeCasts ⟨3, ![a, b, c]⟩) (p : Fin a) (q : Fin b) (k : Fin c) (R : Fin n)
    (hR : R.val = b * p.val + q.val) :
    shapeCast ⟨3, ![a, b, c]⟩ y h (ix3 p q k) = y (ix2 R k) :=
  shapeCast_apply y h (ix3 p q k) (ix2 R k) (by
    rw [Shape.rowMajor_val_three, Shape.rowMajor_val_two]
    show R.val * c + k.val = (p.val * b + q.val) * c + k.val
    rw [hR, Nat.mul_comm b p.val])

end Cert.LibFlatten
-- ==== Proof.Rows.lean ====
/-
  The result row by row over the two-axis flattening of the first argument, and its agreement with the
  three-axis form.

  The first argument, an [8, 4096, 64, 3, 3] array, can be flattened to [32768, 576] or to [8, 4096, 576]. Both
  flattenings keep row-major order: entry (R, k) of the first sits at position R * 576 + k and entry (b, n, k) of the
  second at (b * 4096 + n) * 576 + k, so row 4096 * b + n of the first is row (b, n) of the second. Hence the
  [32768, 2048] array of softmaxed logits computed row by row from the first flattening, with its leading axis split
  back into [8, 4096], is the plain form of the specification on the second flattening.
-/
import proofs.«159865_j987842478192_2_alg».proof.Proof.Spec
import proofs.«159865_j987842478192_2_alg».proof.Proof.LibFlatten
import Idealize.ShloMosaic.Lib.Pipeline.Value
import Idealize.ShloMosaic.Lib.ValueIdx

noncomputable section

namespace Cert.Rows

open Idealize.ShloMosaic Idealize.ShloMosaic.ValueIdx Cert.Spec

/-- The first argument, its flattening to 32768 rows of 576 entries, and the result over those rows. -/
abbrev SA : Shape := ⟨5, ![8, 4096, 64, 3, 3]⟩
abbrev SX2 : Shape := ⟨2, ![32768, 576]⟩
abbrev SO2 : Shape := ⟨2, ![32768, 2048]⟩

/-- The result row by row over the two-axis flattening: at (R, v), the softmax over u of the logits of row R against
    row u of the second argument, read at v. -/
def plainRows (X2 : SX2.Idx → EReal) (W : SW.Idx → EReal) : SO2.Idx → EReal :=
  fun i => softmax (fun u => logit (fun k => X2 (ix2 (i 0) k)) (wrow W u)) (i 1)

theorem plainRows_ix2 (X2 : SX2.Idx → EReal) (W : SW.Idx → EReal) (R : Fin 32768) (v : Fin 2048) :
    plainRows X2 W (ix2 R v) = softmax (fun u => logit (fun k => X2 (ix2 R k)) (wrow W u)) v := rfl

/-- The two flattenings of one array agree row for row: both read the array at the index whose row-major position is
    (b * 4096 + n) * 576 + k. -/
theorem flat_rows {α : Type} (A0 : SA.Idx → α) (h2 : SA.ShapeCasts SX2) (h3 : SA.ShapeCasts SX) (b : Fin 8)
    (n : Fin 4096) (k : Fin 576) (R : Fin 32768) (hR : R.val = 4096 * b.val + n.val) :
    shapeCast SX2 A0 h2 (ix2 R k) = shapeCast SX A0 h3 (ix3 b n k) := by
  unfold shapeCast
  refine congrArg A0 (Shape.reshapeEquiv_eq_of_rowMajor h2 ?_)
  rw [Shape.rowMajor_reshapeEquiv, Shape.rowMajor_val_three, Shape.rowMajor_val_two]
  show (b.val * 4096 + n.val) * 576 + k.val = R.val * 576 + k.val
  rw [hR, Nat.mul_comm 4096 b.val]

/-- The row-by-row result, with its leading axis split back into [8, 4096], is the specification's plain form. -/
theorem split_plainRows (A0 : SA.Idx → EReal) (W : SW.Idx → EReal) (h2 : SA.ShapeCasts SX2) (h3 : SA.ShapeCasts SX)
    (hs : SO2.ShapeCasts SO) :
    shapeCast SO (plainRows (shapeCast SX2 A0 h2) W) hs = plain (shapeCast SX A0 h3) W := by
  funext i
  obtain ⟨b, n, v, rfl⟩ : ∃ (b : Fin 8) (n : Fin 4096) (v : Fin 2048), i = ix3 b n v := ⟨i 0, i 1, i 2, eq_ix3 i⟩
  have hlt : 4096 * b.val + n.val < 32768 := by
    have := b.isLt; have := n.isLt; omega
  refine (Cert.LibFlatten.split_apply (a := 8) (b := 4096) (c := 2048) (n := 32768) _ hs b n v
    ⟨4096 * b.val + n.val, hlt⟩ rfl).trans ?_
  rw [plainRows_ix2, plain_ix3]
  unfold logits xrow
  have e : (fun k : Fin 576 => shapeCast SX2 A0 h2 (ix2 (⟨4096 * b.val + n.val, hlt⟩ : Fin 32768) k))
      = fun k => shapeCast SX A0 h3 (ix3 b n k) :=
    funext fun k => flat_rows A0 h2 h3 b n k ⟨4096 * b.val + n.val, hlt⟩ rfl
  rw [e]

end Cert.Rows

end
-- ==== Proof.KernelRun.lean ====
/-
  The idealized kernel program's run, with its result named by the specification.

  The program flattens its two arguments, runs one region over 64 grid points, and reshapes the region's
  [32768, 2048] output array to [8, 4096, 2048]. After the region that array holds, at (R, v), the plain softmax over u
  of the logits of row R of the first argument flattened to [32768, 576] against row u of the flattened second argument.
  Row 4096 b + n of that flattening is row (b, n) of the flattening to [8, 4096, 576], so the reshaped array is the plain
  form of the specification on the two flattened arguments. The two argument buffers are written by no operation.
-/
import proofs.«159865_j987842478192_2_alg».proof.Proof.Gen.KernelIdeal.Frame
import proofs.«159865_j987842478192_2_alg».proof.Proof.Spec
import proofs.«159865_j987842478192_2_alg».proof.Proof.Entry
import proofs.«159865_j987842478192_2_alg».proof.Proof.Blocks
import proofs.«159865_j987842478192_2_alg».proof.Proof.Rows
import Idealize.ShloMosaic.Lib.StableHlo.Run
import Idealize.ShloMosaic.Lib.ValueIdx
import Idealize.ShloMosaic.Lib.Pipeline.Value

set_option maxRecDepth 16384

noncomputable section

namespace Cert.KernelRun

open Idealize.ShloMosaic Idealize.ShloMosaic.TcCoe Idealize.ShloMosaic.ValueIdx Idealize.SL.Sem Idealize.ShloMosaic.StableHlo
open Idealize.ShloMosaic.Pipeline (Dat Cfg Window)
open Cert.KernelIdeal Cert.KernelIdeal.Gen Cert.KernelEntry Cert.KernelBlocks

variable (m : (ℓ : Loc nD τ sig) → Buf (Elt Ideal) ℓ) (ρ : Dev nD → PrngReg)

/-- The two arguments flatten to the specification's shapes: the row-major positions are kept. -/
theorem hX : S8x4096x64x3x3.ShapeCasts Cert.Spec.SX := by decide
theorem hW : S2048x64x3x3.ShapeCasts Cert.Spec.SW := by decide

/-- The result buffer after the run: the region's output array, which holds the row-by-row softmax of the logits over the
    two-axis flattening, with its leading axis split back into [8, 4096] by the reshape that follows the region, is the
    plain form of the specification on the three-axis flattening. -/
theorem result_eq (c : Dev nD) :
    (Pipeline.afterTail₀ cfgs (dats m) 0 (V0 m) [hostOps1] c main_v7 : S8x4096x2048.Idx → EReal)
      = Cert.Spec.plain (shapeCast Cert.Spec.SX (m ((c.tc : Thread nD τ).loc main_arg0)) hX)
          (shapeCast Cert.Spec.SW (m ((c.tc : Thread nD τ).loc main_arg1)) hW) := by
  unfold Pipeline.afterTail₀
  show StableHlo.after hostOps1 _ (Proc.devRef .tc main_v7) = _
  after_results
  have hA : (Pipeline.withArrays (cfgs 0).spec c (V0 m c) (fun w => (dats m 0 c).arrAt w (cfgs 0).N)
      (Proc.devRef .tc main_v6) : S32768x2048.Idx → EReal) = rowsResult m c :=
    (Pipeline.withArrays_arr spec0 launch0.win.arr_inj c _ _ 3).trans (Cert.KernelBlocks.final m c)
  rw [hA]
  exact Cert.Rows.split_plainRows (m ((c.tc : Thread nD τ).loc main_arg0)) (flatW m c)
    shapeCasts_S8x4096x64x3x3_S32768x576 hX shapeCasts_S32768x2048_S8x4096x2048

/-- The idealized kernel program's run: every weakly fair execution terminates; the result buffer then holds the plain form of
    the specification on the two flattened arguments, and the two argument buffers are as launched. The result is no array of
    the region, so the run's post reads it as the operations after the region leave it; the arguments likewise. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v7)
          = Cert.Spec.plain (shapeCast Cert.Spec.SX (m ((c.tc : Thread nD τ).loc main_arg0)) hX) (shapeCast Cert.Spec.SW (m ((c.tc : Thread nD τ).loc main_arg1)) hW)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v7 (Pipeline.mem_restRefs_of main_v7 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelRun

end
-- ==== Proof.lean ====
/-
  The kernel against its reference, over the extended reals.

  Both programs compute, for row (b, n) of the first argument flattened to 576 entries and every row u of the second
  argument flattened the same way, the logit <x, w> / (|x| |w| + eps), and return the softmax of the 2048 logits of each
  row. The kernel takes the softmax as exp c / sum exp c, tile by tile over 64 blocks of 512 rows, on a two-axis
  flattening of the first argument whose rows it splits back at the end; the reference subtracts the row's largest logit
  first. The precondition makes every input a real number, so every logit is a real number (the denominator is at least
  eps > 0), and for real logits the subtraction cancels: exp (c - M) / sum exp (c - M) = exp c / sum exp c.

  The frames of the two kernel programs are the generated frame runs; the reference's frame is its generated run with the
  result dropped. The idealized kernel is the kernel's own text read over the extended reals: nothing was rewritten, and
  the preservation claim is the empty conjunction.
-/
import proofs.«159865_j987842478192_2_alg».proof.Defs
import proofs.«159865_j987842478192_2_alg».proof.Proof.Gen.Kernel
import proofs.«159865_j987842478192_2_alg».proof.Proof.Gen.Kernel.Skeleton
import proofs.«159865_j987842478192_2_alg».proof.Proof.Gen.Kernel.Launch
import proofs.«159865_j987842478192_2_alg».proof.Proof.Gen.Kernel.Points
import proofs.«159865_j987842478192_2_alg».proof.Proof.Gen.Kernel.Frame
import proofs.«159865_j987842478192_2_alg».proof.Proof.Gen.KernelIdeal
import proofs.«159865_j987842478192_2_alg».proof.Proof.Gen.KernelIdeal.Skeleton
import proofs.«159865_j987842478192_2_alg».proof.Proof.Gen.KernelIdeal.Launch
import proofs.«159865_j987842478192_2_alg».proof.Proof.Gen.KernelIdeal.Points
import proofs.«159865_j987842478192_2_alg».proof.Proof.Gen.KernelIdeal.Frame
import proofs.«159865_j987842478192_2_alg».proof.Proof.Gen.ReferenceIdeal
import proofs.«159865_j987842478192_2_alg».proof.Proof.Gen.Pre_finite_inputs
import proofs.«159865_j987842478192_2_alg».proof.Proof.Gen.ReferenceIdeal.Run
import proofs.«159865_j987842478192_2_alg».proof.Proof.Gen.ReferenceIdeal.Read
import proofs.«159865_j987842478192_2_alg».proof.Proof.Spec
import proofs.«159865_j987842478192_2_alg».proof.Proof.SoftmaxLaw
import proofs.«159865_j987842478192_2_alg».proof.Proof.Finite
import proofs.«159865_j987842478192_2_alg».proof.Proof.RefIsSpec
import proofs.«159865_j987842478192_2_alg».proof.Proof.KernelRun
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the plain softmax of the logits of the flattened arguments: the kernel's by its run,
    the reference's because its shifted softmax is the plain one on real logits. -/
theorem algebraic : Cert.algebraic_KernelIdeal_ReferenceIdeal := by
  intro m ρ m' ρ' hpre hagree
  refine ⟨fun c => Cert.Spec.plain
      (shapeCast Cert.Spec.SX (m ((c.tc : Thread Cert.KernelIdeal.nD Cert.KernelIdeal.τ).loc Cert.KernelIdeal.main_arg0)) Cert.KernelRun.hX)
      (shapeCast Cert.Spec.SW (m ((c.tc : Thread Cert.KernelIdeal.nD Cert.KernelIdeal.τ).loc Cert.KernelIdeal.main_arg1)) Cert.KernelRun.hW),
    Cert.KernelRun.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v23_eq, Cert.RefIsSpec.ref_eq, (hagree c).1, (hagree c).2]
  obtain ⟨hx, hy⟩ := Cert.Finite.real_of_pre _ _ (hpre c)
  exact Cert.SoftmaxLaw.shifted_eq_plain _ _ (fun i => hx _) (fun i => hy _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
